-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x8192 : Shape := ⟨3, ![8, 4096, 8192]⟩
abbrev S4096x8192 : Shape := ⟨2, ![4096, 8192]⟩
abbrev S8192 : Shape := ⟨1, ![8192]⟩
abbrev S_ : Shape := ⟨0, ![]⟩

class Facts : Prop where
  bcast_S_S8x4096x8192 : S_.BroadcastsInDim S8x4096x8192 (![] : Fin 0 → Fin S8x4096x8192.rank)
  reducesTo_S8x4096x8192_S_d0_1_2 : S8x4096x8192.ReducesTo [0, 1, 2] S_
  h_S_ : 0 < S_.numel
  bcast_S_S4096x8192 : S_.BroadcastsInDim S4096x8192 (![] : Fin 0 → Fin S4096x8192.rank)
  reducesTo_S4096x8192_S_d0_1 : S4096x8192.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8x4096x8192 .f32) (main_arg1 : FVec F S4096x8192 .f32) (main_arg2 : FVec F S8192 .f32) : IVec S_ 1 :=
  let main_v0 : FVec F S8x4096x8192 .f32 := Host.absf main_arg0
  let main_cst : FVec F S_ .f32 := constant S_ .f32 0x7F800000#32
  let main_v1 : FVec F S8x4096x8192 .f32 := broadcastInDim S8x4096x8192 ![] bcast_S_S8x4096x8192 main_cst
  let main_v2 : IVec S8x4096x8192 1 := cmpf .olt main_v0 main_v1
  let main_c : IVec S_ 1 := constantI S_ 1 1#1
  let main_v3 : IVec S_ 1 := (fun x v => Host.reduce IntOp.andi x v reducesTo_S8x4096x8192_S_d0_1_2 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S8x4096x8192 : Shape := ⟨3, ![8, 4096, 8192]⟩
abbrev S4096x8192 : Shape := ⟨2, ![4096, 8192]⟩
abbrev S8192 : Shape := ⟨1, ![8192]⟩
abbrev S1x8192 : Shape := ⟨2, ![1, 8192]⟩
abbrev S8x32x8192 : Shape := ⟨3, ![8, 32, 8192]⟩
abbrev S32x8192 : Shape := ⟨2, ![32, 8192]⟩
abbrev S1x32x8192 : Shape := ⟨3, ![1, 32, 8192]⟩
abbrev S32 : Shape := ⟨1, ![32]⟩
abbrev S32x1 : Shape := ⟨2, ![32, 1]⟩

abbrev nBuf : Space → Nat
  | .hbm => 6
  | .vmem => 9
  | .smem => 0
  | _ => 0

abbrev bufTy : (tb : Table) → Fin (tcTables nBuf tb) → BufTy
  | .hbm, ⟨0, _⟩ => ⟨S8x4096x8192, .f32⟩
  | .hbm, ⟨1, _⟩ => ⟨S4096x8192, .f32⟩
  | .hbm, ⟨2, _⟩ => ⟨S8192, .f32⟩
  | .hbm, ⟨3, _⟩ => ⟨S1x8192, .f32⟩
  | .hbm, ⟨4, _⟩ => ⟨S4096x8192, .f32⟩
  | .hbm, ⟨5, _⟩ => ⟨S4096x8192, .f32⟩
  | .local _ .vmem, ⟨0, _⟩ => ⟨S8x32x8192, .f32⟩
  | .local _ .vmem, ⟨1, _⟩ => ⟨S8x32x8192, .f32⟩
  | .local _ .vmem, ⟨2, _⟩ => ⟨S32x8192, .f32⟩
  | .local _ .vmem, ⟨3, _⟩ => ⟨S32x8192, .f32⟩
  | .local _ .vmem, ⟨4, _⟩ => ⟨S1x8192, .f32⟩
  | .local _ .vmem, ⟨5, _⟩ => ⟨S32x8192, .f32⟩
  | .local _ .vmem, ⟨6, _⟩ => ⟨S32x8192, .f32⟩
  | .local _ .vmem, ⟨7, _⟩ => ⟨S32x8192, .f32⟩
  | .local _ .vmem, ⟨8, _⟩ => ⟨S32x8192, .f32⟩
  | _, _ => ⟨S8x4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8192_S1x8192 : S8192.ShapeCasts S1x8192
  inb_S32x8192_S32x8192_0_0 : ∀ a, (![0, 0] : Fin 2 → Nat) a + S32x8192.size a ≤ S32x8192.size a
  h_S32x8192 : 0 < S32x8192.numel
  inb_S8x32x8192_S1x32x8192_0_0_0 : ∀ a, (![0, 0, 0] : Fin 3 → Nat) a + S1x32x8192.size a ≤ S8x32x8192.size a
  h_S1x32x8192 : 0 < S1x32x8192.numel
  shapeCasts_S1x32x8192_S32x8192 : S1x32x8192.ShapeCasts S32x8192
  inb_S8x32x8192_S1x32x8192_1_0_0 : ∀ a, (![1, 0, 0] : Fin 3 → Nat) a + S1x32x8192.size a ≤ S8x32x8192.size a
  inb_S8x32x8192_S1x32x8192_2_0_0 : ∀ a, (![2, 0, 0] : Fin 3 → Nat) a + S1x32x8192.size a ≤ S8x32x8192.size a
  inb_S8x32x8192_S1x32x8192_3_0_0 : ∀ a, (![3, 0, 0] : Fin 3 → Nat) a + S1x32x8192.size a ≤ S8x32x8192.size a
  inb_S8x32x8192_S1x32x8192_4_0_0 : ∀ a, (![4, 0, 0] : Fin 3 → Nat) a + S1x32x8192.size a ≤ S8x32x8192.size a
  inb_S8x32x8192_S1x32x8192_5_0_0 : ∀ a, (![5, 0, 0] : Fin 3 → Nat) a + S1x32x8192.size a ≤ S8x32x8192.size a
  inb_S8x32x8192_S1x32x8192_6_0_0 : ∀ a, (![6, 0, 0] : Fin 3 → Nat) a + S1x32x8192.size a ≤ S8x32x8192.size a
  inb_S8x32x8192_S1x32x8192_7_0_0 : ∀ a, (![7, 0, 0] : Fin 3 → Nat) a + S1x32x8192.size a ≤ S8x32x8192.size a
  reduces_S32x8192_S32 : S32x8192.Reduces [1] S32
  shapeCasts_S32_S32x1 : S32.ShapeCasts S32x1
  broadcasts_S32x1_S32x8192 : S32x1.Broadcasts S32x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S32x8192 : S1x8192.Broadcasts S32x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x8192.size a ≤ S8x4096x8192.size a
  hwx0_0 : ∀ i : grid0.Coords, EltTy.bits .f32 = 32 ∨ (Rect.block (s := S8x4096x8192) S8x32x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x8192.size a ≤ S4096x8192.size a
  hwx0_1 : ∀ i : grid0.Coords, EltTy.bits .f32 = 32 ∨ (Rect.block (s := S4096x8192) S32x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x8192.size a ≤ S4096x8192.size a
  hwx0_3 : ∀ i : grid0.Coords, EltTy.bits .f32 = 32 ∨ (Rect.block (s := S4096x8192) S32x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x8192.size a ≤ S4096x8192.size a
  hwx0_4 : ∀ i : grid0.Coords, EltTy.bits .f32 = 32 ∨ (Rect.block (s := S4096x8192) S32x8192.size (cc0_transform_4 i) (hinb0_4 i)).WholeWords (EltTy.packing .f32)

variable [Facts₀]

abbrev win0_0 : Pipeline.Window sig grid0 :=
  Pipeline.Window.ofSpec (Memref.whole main_arg0) S8x32x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S32x8192.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S32x8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x8192 : Shape := ⟨3, ![8, 4096, 8192]⟩
abbrev S4096x8192 : Shape := ⟨2, ![4096, 8192]⟩
abbrev S8192 : Shape := ⟨1, ![8192]⟩
abbrev S_ : Shape := ⟨0, ![]⟩
abbrev S4096 : Shape := ⟨1, ![4096]⟩
abbrev S4096x1 : Shape := ⟨2, ![4096, 1]⟩
abbrev S1x8192 : Shape := ⟨2, ![1, 8192]⟩

abbrev nBuf : Space → Nat
  | .hbm => 22
  | .vmem => 0
  | .smem => 0
  | _ => 0

abbrev bufTy : (tb : Table) → Fin (tcTables nBuf tb) → BufTy
  | .hbm, ⟨0, _⟩ => ⟨S8x4096x8192, .f32⟩
  | .hbm, ⟨1, _⟩ => ⟨S4096x8192, .f32⟩
  | .hbm, ⟨2, _⟩ => ⟨S8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x8192, .f32⟩
  | .hbm, ⟨18, _⟩ => ⟨S4096x8192, .f32⟩
  | .hbm, ⟨19, _⟩ => ⟨S1x8192, .f32⟩
  | .hbm, ⟨20, _⟩ => ⟨S4096x8192, .f32⟩
  | .hbm, ⟨21, _⟩ => ⟨S4096x8192, .f32⟩
  | _, _ => ⟨S8x4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  reducesTo_S8x4096x8192_S4096x8192_d0 : S8x4096x8192.ReducesTo [0] S4096x8192
  h_S_ : 0 < S_.numel
  reducesTo_S4096x8192_S4096_d1 : S4096x8192.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x8192_0_1 : S4096x1.BroadcastsInDim S4096x8192 (![0, 1] : Fin 2 → Fin S4096x8192.rank)
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)

variable [Facts₀]

class Facts : Prop extends Facts₀ where

variable [Facts]
-- ==== Proof.LibColumns.lean ====
/-
  A row statistic kept as a column. A reduction over the lanes of an [a, b] array leaves one value per row, an [a]
  vector; "keepdims" reshapes it to the column [a, 1], and the column is then broadcast back over the lanes to [a, b].
  Read at an index, the column at (i, 0) is the vector at i, and the broadcast at (p, c) is the column at (p, 0):
  every lane of row p sees row p's statistic. Also the lane reductions themselves at the ideal values, read at a row:
  a lane sum is the sum over the row, a lane maximum the maximum over the row taken from the accumulator's value.
  General facts, for any extents.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx
open scoped BigOperators

variable {α : Type}

/-- An [a] vector cast to the column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a lane sum of an [a, b] array, read at row p, is the sum over the row. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

/-- At the ideal values a lane maximum of an [a, b] array, read at row p, is the maximum over the row taken from
    the accumulator's value. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => (Finset.univ : Finset (Fin b)).fold max (Ideal.ofBits φ acc) f) (funext fun k => congrArg v (funext fun ax => Fin.ext (by
      match ax with
      | ⟨0, _⟩ => rfl
      | ⟨1, _⟩ => rfl))))

end Cert.Columns

end
-- ==== Proof.SumNormSpec.lean ====
/-
  The fused operation, as mathematics. Eight partial activations x[k] (k < 8), each a [4096, 8192] array, are summed
  over k and a residual array r is added: a[t, h] = (Σ_k x[k, t, h]) + r[t, h]. Each row a[t, ·] is then divided by its
  root mean square, with a small ε under the root, and multiplied lane by lane by a weight vector w:
      out[t, h] = a[t, h] · (mean_h' a[t, h']² + ε)^(-1/2) · w[h].
  Both arrays a and out are results. Everything is read on the extended reals, where addition is commutative and
  associative with 0 neutral: that is the only law used. One program adds the nine terms r, x[0], …, x[7] from the left
  starting at r; the other forms 0 + Σ_k x[k] and adds r last. The two agree by that law alone, with no finiteness
  assumption. The divisor 8192 and ε are the same float patterns in both programs and are never evaluated.
-/
import Idealize.ShloMosaic.PureOps.Ideal.Laws
import Idealize.ShloMosaic.Lib.ValueIdx

noncomputable section

namespace Cert.SumNorm

open Idealize.ShloMosaic Idealize.ShloMosaic.ValueIdx
open scoped BigOperators

/-- Nine terms added from the left, starting at r, are the sum of the eight plus r. -/
theorem fold_eq_sum (r : EReal) (f : Fin 8 → EReal) :
    r + f 0 + f 1 + f 2 + f 3 + f 4 + f 5 + f 6 + f 7 = (∑ k : Fin 8, f k) + r := by
  rw [Fin.sum_univ_eight]; abel

/-- The same sum with a zero put in front of it, as a reduction that starts from 0 leaves it. -/
theorem zero_add_sum (r : EReal) (f : Fin 8 → EReal) :
    Ideal.ofBits .f32 0x00000000#32 + (∑ k : Fin 8, f k) + r = (∑ k : Fin 8, f k) + r := by
  rw [Ideal.ofBits_zero_f32, zero_add]

/-- One row a, divided by its root mean square (ε under the root) and scaled lane by lane by w, at lane h. The mean
    is the row's sum of squares over 8192.0; the two constants stay float patterns. -/
def rowNorm (a w : Fin 8192 → EReal) (h : Fin 8192) : EReal :=
  a h * Ideal.rsqrt (Ideal.div (∑ k : Fin 8192, a k * a k) (Ideal.ofBits .f32 0x46000000#32)
    + Ideal.ofBits .f32 0x3727C5AC#32) * w h

/-- The summed activations plus the residual at token t and lane h. -/
def summed (x : (⟨3, ![8, 4096, 8192]⟩ : Shape).Idx → EReal) (r : (⟨2, ![4096, 8192]⟩ : Shape).Idx → EReal)
    (t : Fin 4096) (h : Fin 8192) : EReal :=
  (∑ k : Fin 8, x (ix3 k t h)) + r (ix2 t h)

/-- The second result: the summed array, index by index. -/
def resOut (x : (⟨3, ![8, 4096, 8192]⟩ : Shape).Idx → EReal) (r : (⟨2, ![4096, 8192]⟩ : Shape).Idx → EReal) :
    (⟨2, ![4096, 8192]⟩ : Shape).Idx → EReal :=
  fun i => summed x r ⟨(i 0).val, idx2_lt0 i⟩ ⟨(i 1).val, idx2_lt1 i⟩

/-- The first result: every row of the summed array normalised and scaled by the weights. -/
def normOut (x : (⟨3, ![8, 4096, 8192]⟩ : Shape).Idx → EReal) (r : (⟨2, ![4096, 8192]⟩ : Shape).Idx → EReal)
    (w : (⟨1, ![8192]⟩ : Shape).Idx → EReal) : (⟨2, ![4096, 8192]⟩ : Shape).Idx → EReal :=
  fun i => rowNorm (fun h => summed x r ⟨(i 0).val, idx2_lt0 i⟩ h) (fun h => w (ix1 h)) ⟨(i 1).val, idx2_lt1 i⟩

theorem resOut_ix2 (x : (⟨3, ![8, 4096, 8192]⟩ : Shape).Idx → EReal) (r : (⟨2, ![4096, 8192]⟩ : Shape).Idx → EReal)
    (t : Fin 4096) (h : Fin 8192) : resOut x r (ix2 t h) = summed x r t h := rfl

theorem normOut_ix2 (x : (⟨3, ![8, 4096, 8192]⟩ : Shape).Idx → EReal) (r : (⟨2, ![4096, 8192]⟩ : Shape).Idx → EReal)
    (w : (⟨1, ![8192]⟩ : Shape).Idx → EReal) (t : Fin 4096) (h : Fin 8192) :
    normOut x r w (ix2 t h) = rowNorm (fun h' => summed x r t h') (fun h' => w (ix1 h')) h := rfl

end Cert.SumNorm

end
-- ==== Proof.BlockArith.lean ====
/-
  The kernel body's arithmetic on one block of 32 rows, read at an index (p, q) of the block. The body loads the
  residual block and the eight slices of the activation block, adds them from the left, and from that sum a computes
  each row's mean of squares (a lane sum over the 8192 lanes, kept as a column [32, 1], over 8192.0), adds ε, takes the
  inverse square root, spreads the column back over the lanes, and multiplies by the one weight row spread over the 32
  rows. Stated for arbitrary vectors of the loads' shapes; the reshapes and broadcasts are read by their index lemmas
  and the lane sum as the sum over the row.
-/
import proofs.«171562_j50646254354848_2_alg».proof.Proof.Gen.KernelIdeal.Skeleton
import proofs.«171562_j50646254354848_2_alg».proof.Proof.LibColumns
import proofs.«171562_j50646254354848_2_alg».proof.Proof.SumNormSpec
import Idealize.ShloMosaic.Lib.ValueLayout

noncomputable section

namespace Cert.KernelIdeal.Body

open Cert.KernelIdeal Cert.KernelIdeal.Gen Idealize.ShloMosaic Idealize.ShloMosaic.ValueIdx
open scoped BigOperators

/-- The summed block at (p, q): the residual's entry plus the eight slices' entries, added from the left. -/
theorem sum_apply (v0 : Vec Ideal S32x8192 .f32) (v1 v4 v7 v10 v13 v16 v19 v22 : Vec Ideal S1x32x8192 .f32)
    (p : Fin 32) (q : Fin 8192) :
    k0_pay2 v0 v1 v4 v7 v10 v13 v16 v19 v22 (ix2 p q)
      = v0 (ix2 p q) + v1 (ix3 (0 : Fin 1) p q) + v4 (ix3 (0 : Fin 1) p q) + v7 (ix3 (0 : Fin 1) p q)
        + v10 (ix3 (0 : Fin 1) p q) + v13 (ix3 (0 : Fin 1) p q) + v16 (ix3 (0 : Fin 1) p q)
        + v19 (ix3 (0 : Fin 1) p q) + v22 (ix3 (0 : Fin 1) p q) := by
  unfold k0_pay2
  simp only [addf_apply, shapeCast_1ab_ab_apply]

/-- The column of row means at (p, ·): row p's sum of squares of the summed block, over 8192.0. -/
theorem meanSq_apply (v0 : Vec Ideal S32x8192 .f32) (v1 v4 v7 v10 v13 v16 v19 v22 : Vec Ideal S1x32x8192 .f32)
    (p : Fin 32) (u : Fin 1) :
    k0_pay3 v0 v1 v4 v7 v10 v13 v16 v19 v22 (ix2 p u)
      = Ideal.div (∑ k : Fin 8192, k0_pay2 v0 v1 v4 v7 v10 v13 v16 v19 v22 (ix2 p k)
          * k0_pay2 v0 v1 v4 v7 v10 v13 v16 v19 v22 (ix2 p k)) (Ideal.ofBits .f32 0x46000000#32) := by
  unfold k0_pay3
  generalize k0_pay2 v0 v1 v4 v7 v10 v13 v16 v19 v22 = A
  show Ideal.div (shapeCast S32x1 (multiReduction (F := Ideal) .add [1] S32 (mulf A A) 0x00000000#32
      reduces_S32x8192_S32 (.inl rfl) rfl) shapeCasts_S32_S32x1 (ix2 p u)) (Ideal.ofBits .f32 0x46000000#32) = _
  refine congrArg (fun z => Ideal.div z (Ideal.ofBits .f32 0x46000000#32)) ?_
  refine (Cert.Columns.shapeCast_a_a1_apply _ shapeCasts_S32_S32x1 p u).trans ?_
  exact Cert.Columns.laneSum_apply (mulf A A) 0x00000000#32 reduces_S32x8192_S32 (.inl rfl) rfl p

/-- The stored block at (p, q): the summed entry, times the inverse square root of row p's mean plus ε, times the
    weight at lane q. -/
theorem scaled_apply (a : FVec Ideal S32x8192 .f32) (mu : FVec Ideal S32x1 .f32) (eps : Ideal .f32)
    (wrow : Vec Ideal S1x8192 .f32) (p : Fin 32) (q : Fin 8192) :
    k0_pay1 a mu eps wrow (ix2 p q)
      = a (ix2 p q) * Ideal.rsqrt (mu (ix2 p (0 : Fin 1)) + eps) * wrow (ix2 (0 : Fin 1) q) := by
  unfold k0_pay1
  show a (ix2 p q) * broadcastTo S32x8192 (rsqrt (addf mu (broadcast S32x1 eps))) broadcasts_S32x1_S32x8192 (ix2 p q)
      * broadcastTo S32x8192 (shapeCast S1x8192 wrow shapeCasts_S1x8192_S1x8192) broadcasts_S1x8192_S32x8192 (ix2 p q) = _
  rw [Cert.Columns.broadcastTo_a1_ab_apply _ broadcasts_S32x1_S32x8192 p q (0 : Fin 1),
    broadcastTo_1b_ab_apply _ broadcasts_S1x8192_S32x8192 p q, shapeCast_self]
  rfl

end Cert.KernelIdeal.Body

end
-- ==== Proof.BlockValue.lean ====
/-
  What the kernel body leaves in its two output blocks, as functions of the three input blocks: the activation block X
  of shape [8, 32, 8192], the residual block R of shape [32, 8192] and the weight row W of shape [1, 8192]. The eight
  loads of X read the slices X[k, ·, ·]; adding them to R from the left gives, by commutativity and associativity of
  addition, (Σ_k X[k, p, q]) + R[p, q]. That is the block stored to the second output. The block stored to the first
  output is each row of it divided by the row's root mean square (ε under the root) and scaled by W.
-/
import proofs.«171562_j50646254354848_2_alg».proof.Proof.Gen.KernelIdeal.Frame
import proofs.«171562_j50646254354848_2_alg».proof.Proof.BlockArith

noncomputable section

namespace Cert.KernelIdeal.Body

open Cert.KernelIdeal Cert.KernelIdeal.Gen Idealize.ShloMosaic Idealize.ShloMosaic.ValueIdx
open scoped BigOperators

/-- The two zero offsets of a whole-block access. -/
theorem zero_off : (![0, 0] : Fin 2 → Nat) = fun _ => 0 := funext fun a => by fin_cases a <;> rfl

/-- A load of the slice at offset o on the leading axis reads, at (0, p, q), the block at (k, p, q) for k = o. -/
theorem slice_apply (X : Vec Ideal S8x32x8192 .f32) (o : Nat) (k : Fin 8) (hk : k.val = o)
    (inb : ∀ a, (![o, 0, 0] : Fin 3 → Nat) a + S1x32x8192.size a ≤ S8x32x8192.size a) (p : Fin 32) (q : Fin 8192) :
    View.ld X (Rect.unit (s := S8x32x8192) ![o, 0, 0] S1x32x8192.size inb) (ix3 (0 : Fin 1) p q) = X (ix3 k p q) := by
  show X ((Rect.unit (s := S8x32x8192) ![o, 0, 0] S1x32x8192.size inb).idx (ix3 (0 : Fin 1) p q)) = X (ix3 k p q)
  refine congrArg X (funext fun a => Fin.ext ?_)
  match a with
  | ⟨0, _⟩ => show o + 1 * 0 = k.val; omega
  | ⟨1, _⟩ => show 0 + 1 * p.val = p.val; omega
  | ⟨2, _⟩ => show 0 + 1 * q.val = q.val; omega

/-- The summed payload over the eight slices of X and the block R, at (p, q): the sum over k plus the residual. -/
theorem sumPayload_apply (X : Vec Ideal S8x32x8192 .f32) (R : Vec Ideal S32x8192 .f32) (p : Fin 32) (q : Fin 8192) :
    k0_pay2 R (View.ld X r0_1) (View.ld X r0_2) (View.ld X r0_3) (View.ld X r0_4) (View.ld X r0_5) (View.ld X r0_6)
        (View.ld X r0_7) (View.ld X r0_8) (ix2 p q)
      = (∑ k : Fin 8, X (ix3 k p q)) + R (ix2 p q) := by
  refine (sum_apply _ _ _ _ _ _ _ _ _ p q).trans ?_
  rw [slice_apply X 0 0 rfl, slice_apply X 1 1 rfl, slice_apply X 2 2 rfl, slice_apply X 3 3 rfl,
    slice_apply X 4 4 rfl, slice_apply X 5 5 rfl, slice_apply X 6 6 rfl, slice_apply X 7 7 rfl]
  exact Cert.SumNorm.fold_eq_sum (R (ix2 p q)) (fun k => X (ix3 k p q))

/-- The block left in the second output: the sum over the eight slices plus the residual. -/
theorem sumBlock_apply (X : Vec Ideal S8x32x8192 .f32) (R : Vec Ideal S32x8192 .f32) (W : Vec Ideal S1x8192 .f32)
    (p : Fin 32) (q : Fin 8192) :
    out0_4 X R W (ix2 p q) = (∑ k : Fin 8, X (ix3 k p q)) + R (ix2 p q) := by
  unfold out0_4
  rw [View.canon_unit_zero zero_off, View.ld_unit_zero (S := S32x8192) zero_off]
  exact sumPayload_apply X R p q

/-- The block left in the first output: each row of that sum normalised by its root mean square and scaled by W. -/
theorem normBlock_apply (X : Vec Ideal S8x32x8192 .f32) (R : Vec Ideal S32x8192 .f32) (W : Vec Ideal S1x8192 .f32)
    (p : Fin 32) (q : Fin 8192) :
    out0_3 X R W (ix2 p q)
      = Cert.SumNorm.rowNorm (fun h => (∑ k : Fin 8, X (ix3 k p h)) + R (ix2 p h)) (fun h => W (ix2 (0 : Fin 1) h)) q := by
  unfold out0_3
  rw [View.canon_unit_zero zero_off, View.ld_unit_zero (S := S32x8192) zero_off, View.ld_unit_zero (S := S1x8192) zero_off]
  refine (scaled_apply _ _ _ _ p q).trans ?_
  rw [meanSq_apply]
  simp only [sumPayload_apply]
  rfl

end Cert.KernelIdeal.Body

end
-- ==== Proof.Arrays.lean ====
/-
  From blocks to whole arrays. The grid has 128 points; point t works on rows 32 t … 32 t + 31. Its activation block
  is x[·, 32 t + p, q], its residual block r[32 t + p, q], and its weight block is the single row w[q] for every t
  (the weight vector reshaped to [1, 8192] before the launch). Both outputs are written back at the same rows, so
  what point t writes is rows 32 t … 32 t + 31 of one function of the whole argument arrays: the summed array for the
  second output and the row-normalised array for the first. Every row r lies in the block of point r / 32, so the
  128 blocks cover each output array and the arrays end holding those functions.
-/
import proofs.«171562_j50646254354848_2_alg».proof.Proof.Gen.KernelIdeal.Value
import proofs.«171562_j50646254354848_2_alg».proof.Proof.BlockValue
import Idealize.ShloMosaic.Lib.StableHlo.Run
import Idealize.ShloMosaic.Lib.Pipeline.Value

noncomputable section

namespace Cert.KernelIdeal.Arrays

open Cert.KernelIdeal Cert.KernelIdeal.Gen Cert.KernelIdeal.Value Cert.KernelIdeal.Body
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-- The block index of every window at grid point t: the row-blocked windows move with t on the row axis, the weight
    window stays at its one block. -/
theorem index_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 128 := lt_of_lt_of_eq t.isLt N_0

/-- Row p of point t's block is row 32 t + p of the array. -/
def row (t : Fin cfg0.N) (p : Fin 32) : Fin 4096 :=
  ⟨t.val * 32 + p.val, by have := point_lt t; have := p.isLt; omega⟩

/-- Point t's three input blocks, at their literal shapes: activations, residual, weight row. -/
abbrev xblk (c : Dev nD) (t : Fin cfg0.N) : Vec Ideal S8x32x8192 .f32 := iblk m c 0 t
abbrev rblk (c : Dev nD) (t : Fin cfg0.N) : Vec Ideal S32x8192 .f32 := iblk m c 1 t
abbrev wblk (c : Dev nD) (t : Fin cfg0.N) : Vec Ideal S1x8192 .f32 := iblk m c 2 t

/-- The activation block at point t: entry (k, p, q) is the array's entry (k, 32 t + p, q). -/
theorem xblock_read (c : Dev nD) (t : Fin cfg0.N) (k : Fin 8) (p : Fin 32) (q : Fin 8192) :
    xblk m c t (ix3 k p q)
      = (V m c main_arg0 : S8x4096x8192.Idx → EReal) (ix3 k (row t p) q) := by
  obtain ⟨e0, e1, e2, -⟩ := index_facts t
  unfold xblk iblk
  rw [View.read_apply]
  show V m c main_arg0 _ = V m c main_arg0 _
  refine congrArg (V m c main_arg0) (funext fun a => Fin.ext ?_)
  match a with
  | ⟨0, _⟩ => show win0_0.index t (0 : Fin 3) * 8 + 1 * k.val = k.val; omega
  | ⟨1, _⟩ => show win0_0.index t (1 : Fin 3) * 32 + 1 * p.val = t.val * 32 + p.val; omega
  | ⟨2, _⟩ => show win0_0.index t (2 : Fin 3) * 8192 + 1 * q.val = q.val; omega

/-- The residual block at point t: entry (p, q) is the array's entry (32 t + p, q). -/
theorem rblock_read (c : Dev nD) (t : Fin cfg0.N) (p : Fin 32) (q : Fin 8192) :
    rblk m c t (ix2 p q)
      = (V m c main_arg1 : S4096x8192.Idx → EReal) (ix2 (row t p) q) := by
  obtain ⟨-, -, -, e0, e1, -⟩ := index_facts t
  unfold rblk iblk
  rw [View.read_apply]
  show V m c main_arg1 _ = V m c main_arg1 _
  refine congrArg (V m c main_arg1) (funext fun a => Fin.ext ?_)
  match a with
  | ⟨0, _⟩ => show win0_1.index t (0 : Fin 2) * 32 + 1 * p.val = t.val * 32 + p.val; omega
  | ⟨1, _⟩ => show win0_1.index t (1 : Fin 2) * 8192 + 1 * q.val = q.val; omega

/-- The weight block at every point is the whole one-row array the launch finds. -/
theorem wblock_read (c : Dev nD) (t : Fin cfg0.N) (q : Fin 8192) :
    wblk m c t (ix2 (0 : Fin 1) q)
      = (V m c main_v0 : S1x8192.Idx → EReal) (ix2 (0 : Fin 1) q) := by
  obtain ⟨-, -, -, -, -, e0, e1, -⟩ := index_facts t
  unfold wblk iblk
  rw [View.read_apply]
  show V m c main_v0 _ = V m c main_v0 _
  refine congrArg (V m c main_v0) (funext fun a => Fin.ext ?_)
  match a with
  | ⟨0, _⟩ => show win0_2.index t (0 : Fin 2) * 1 + 1 * 0 = 0; omega
  | ⟨1, _⟩ => show win0_2.index t (1 : Fin 2) * 8192 + 1 * q.val = q.val; omega

/-- That one-row array is the weight vector reshaped: the one host operation before the launch. -/
theorem weight_row (c : Dev nD) :
    (V m c main_v0 : S1x8192.Idx → EReal)
      = shapeCast S1x8192 (m ((c : Thread nD τ).loc main_arg2) : S8192.Idx → EReal) shapeCasts_S8192_S1x8192 := by
  dsimp only [Gen.V, Gen.hostOps0]
  after_results
  rfl

/-- So its entry (0, q) is the weight vector's entry q. -/
theorem weight_apply (c : Dev nD) (q : Fin 8192) :
    (V m c main_v0 : S1x8192.Idx → EReal) (ix2 (0 : Fin 1) q)
      = (m ((c : Thread nD τ).loc main_arg2) : S8192.Idx → EReal) (ix1 q) := by
  rw [weight_row]
  exact shapeCast_a_1a_apply _ shapeCasts_S8192_S1x8192 (0 : Fin 1) q

/-- An entry (p, q) of point t's block of either output sits at (32 t + p, q) of its array. -/
theorem out3_emb (t : Fin cfg0.N) (p : Fin 32) (q : Fin 8192) :
    (((cfg0.win 3).blk t).view.emb (ix2 p q) : S4096x8192.Idx) = ix2 (row t p) q := by
  obtain ⟨-, -, -, -, -, -, -, e0, e1, -⟩ := index_facts t
  refine funext fun a => Fin.ext ?_
  match a with
  | ⟨0, _⟩ => show win0_3.index t (0 : Fin 2) * 32 + 1 * p.val = t.val * 32 + p.val; omega
  | ⟨1, _⟩ => show win0_3.index t (1 : Fin 2) * 8192 + 1 * q.val = q.val; omega

theorem out4_emb (t : Fin cfg0.N) (p : Fin 32) (q : Fin 8192) :
    (((cfg0.win 4).blk t).view.emb (ix2 p q) : S4096x8192.Idx) = ix2 (row t p) q := by
  obtain ⟨-, -, -, -, -, -, -, -, -, e0, e1⟩ := index_facts t
  refine funext fun a => Fin.ext ?_
  match a with
  | ⟨0, _⟩ => show win0_4.index t (0 : Fin 2) * 32 + 1 * p.val = t.val * 32 + p.val; omega
  | ⟨1, _⟩ => show win0_4.index t (1 : Fin 2) * 8192 + 1 * q.val = q.val; omega

/-- Row 32 t + p of the summed array, read off point t's input blocks. -/
theorem summed_row (c : Dev nD) (t : Fin cfg0.N) (p : Fin 32) (h : Fin 8192) :
    (∑ k : Fin 8, xblk m c t (ix3 k p h)) + rblk m c t (ix2 p h)
      = Cert.SumNorm.summed (V m c main_arg0) (V m c main_arg1) (row t p) h :=
  congrArg₂ (· + ·) (Finset.sum_congr rfl fun k _ => xblock_read m c t k p h) (rblock_read m c t p h)

/-- What point t writes back to the second output is rows 32 t … 32 t + 31 of the summed array. -/
theorem flushed_sum (c : Dev nD) (t : Fin cfg0.N) :
    (dats m 0 c).flushed 4 t
      = ((cfg0.win 4).blk t).view.read (Elt Ideal) (Cert.SumNorm.resOut (V m c main_arg0) (V m c main_arg1)) := by
  rw [flushed4]
  funext y
  obtain ⟨p, q, rfl⟩ : ∃ (p : Fin 32) (q : Fin 8192), y = ix2 p q := ⟨y 0, y 1, eq_ix2 y⟩
  rw [View.read_apply, out4_emb, Cert.SumNorm.resOut_ix2]
  show out0_4 (xblk m c t) (rblk m c t) (wblk m c t) (ix2 p q) = _
  exact (sumBlock_apply (xblk m c t) (rblk m c t) (wblk m c t) p q).trans (summed_row m c t p q)

/-- What point t writes back to the first output is rows 32 t … 32 t + 31 of the row-normalised array. -/
theorem flushed_norm (c : Dev nD) (t : Fin cfg0.N) :
    (dats m 0 c).flushed 3 t
      = ((cfg0.win 3).blk t).view.read (Elt Ideal)
          (Cert.SumNorm.normOut (V m c main_arg0) (V m c main_arg1) (m ((c : Thread nD τ).loc main_arg2))) := by
  rw [flushed3]
  funext y
  obtain ⟨p, q, rfl⟩ : ∃ (p : Fin 32) (q : Fin 8192), y = ix2 p q := ⟨y 0, y 1, eq_ix2 y⟩
  rw [View.read_apply, out3_emb, Cert.SumNorm.normOut_ix2]
  show out0_3 (xblk m c t) (rblk m c t) (wblk m c t) (ix2 p q)
    = Cert.SumNorm.rowNorm (fun h' => Cert.SumNorm.summed (V m c main_arg0) (V m c main_arg1) (row t p) h')
        (fun h' => (m ((c : Thread nD τ).loc main_arg2) : S8192.Idx → EReal) (ix1 h')) q
  refine (normBlock_apply (xblk m c t) (rblk m c t) (wblk m c t) p q).trans ?_
  refine congrArg₂ (fun a w => Cert.SumNorm.rowNorm a w q) (funext fun h => summed_row m c t p h) (funext fun h => ?_)
  exact (wblock_read m c t h).trans (weight_apply m c h)

/-- Row r of an output array lies in the block of point r / 32. -/
theorem covered3 (i : S4096x8192.Idx) :
    ∃ t : Fin cfg0.N, (cfg0.win 3).flush t = true ∧ i ∈ ((cfg0.win 3).blk t).view.set := by
  have h0 : (i 0).val < 4096 := (i 0).isLt
  have h1 : (i 1).val < 8192 := (i 1).isLt
  have hN : cfg0.N = 128 := N_0
  obtain ⟨t, ht⟩ : ∃ t : Fin cfg0.N, t.val = (i 0).val / 32 := ⟨⟨(i 0).val / 32, by rw [hN]; omega⟩, rfl⟩
  obtain ⟨-, -, -, -, -, -, -, e0, e1, -⟩ := index_facts t
  refine ⟨t, flush0_3 t, ?_⟩
  show i ∈ ((View.whole main_v1_0).slice (win0_3.rect t)).set
  rw [View.set_slice_whole, Rect.mem_set_unit]
  intro a
  match a with
  | ⟨0, _⟩ => show win0_3.index t (0 : Fin 2) * 32 ≤ (i 0).val ∧ (i 0).val < win0_3.index t (0 : Fin 2) * 32 + 32; omega
  | ⟨1, _⟩ => show win0_3.index t (1 : Fin 2) * 8192 ≤ (i 1).val ∧ (i 1).val < win0_3.index t (1 : Fin 2) * 8192 + 8192; omega

theorem covered4 (i : S4096x8192.Idx) :
    ∃ t : Fin cfg0.N, (cfg0.win 4).flush t = true ∧ i ∈ ((cfg0.win 4).blk t).view.set := by
  have h0 : (i 0).val < 4096 := (i 0).isLt
  have h1 : (i 1).val < 8192 := (i 1).isLt
  have hN : cfg0.N = 128 := N_0
  obtain ⟨t, ht⟩ : ∃ t : Fin cfg0.N, t.val = (i 0).val / 32 := ⟨⟨(i 0).val / 32, by rw [hN]; omega⟩, rfl⟩
  obtain ⟨-, -, -, -, -, -, -, -, -, e0, e1⟩ := index_facts t
  refine ⟨t, flush0_4 t, ?_⟩
  show i ∈ ((View.whole main_v1_1).slice (win0_4.rect t)).set
  rw [View.set_slice_whole, Rect.mem_set_unit]
  intro a
  match a with
  | ⟨0, _⟩ => show win0_4.index t (0 : Fin 2) * 32 ≤ (i 0).val ∧ (i 0).val < win0_4.index t (0 : Fin 2) * 32 + 32; omega
  | ⟨1, _⟩ => show win0_4.index t (1 : Fin 2) * 8192 ≤ (i 1).val ∧ (i 1).val < win0_4.index t (1 : Fin 2) * 8192 + 8192; omega

/-- After the run the first output is the row-normalised array of the arguments as launched. -/
theorem final_norm (c : Dev nD) :
    (dats m 0 c).arrAt 3 cfg0.N
      = Cert.SumNorm.normOut (m ((c : Thread nD τ).loc main_arg0)) (m ((c : Thread nD τ).loc main_arg1))
          (m ((c : Thread nD τ).loc main_arg2)) := by
  rw [← V_main_arg0 m c, ← V_main_arg1 m c]
  exact (dats m 0 c).arrAt_eq_of_cover 3 _ (fun t _ => flushed_norm m c t) covered3

/-- After the run the second output is the summed array of the arguments as launched. -/
theorem final_sum (c : Dev nD) :
    (dats m 0 c).arrAt 4 cfg0.N
      = Cert.SumNorm.resOut (m ((c : Thread nD τ).loc main_arg0)) (m ((c : Thread nD τ).loc main_arg1)) := by
  rw [← V_main_arg0 m c, ← V_main_arg1 m c]
  exact (dats m 0 c).arrAt_eq_of_cover 4 _ (fun t _ => flushed_sum m c t) covered4

/-- The kernel's run, read: both results at the specification's functions of the arguments, the arguments unchanged. -/
theorem run : θ_run defs (onTc (τ := τ) (main (F := Ideal))) ⟨m, fun _ => 0, ρ⟩ fun r => ∀ c : Dev nD,
      r.2.mem ((c : Thread nD τ).loc main_v1_0)
        = Cert.SumNorm.normOut (m ((c : Thread nD τ).loc main_arg0)) (m ((c : Thread nD τ).loc main_arg1))
            (m ((c : Thread nD τ).loc main_arg2))
      ∧ r.2.mem ((c : Thread nD τ).loc main_v1_1)
        = Cert.SumNorm.resOut (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_norm m c), (h c).2.1.trans (final_sum m c), (h c).2.2⟩)
    (run_blocks m ρ)

end Cert.KernelIdeal.Arrays

end
-- ==== Proof.ReferenceAsSpec.lean ====
/-
  The reference program computes the specification. Its summed array is 0 + Σ_k x[k, t, h], then + r[t, h]; a zero in
  front of a sum changes nothing. Its normalised array divides row t's sum of squares (again started from 0) by 8192.0,
  adds ε, takes the inverse square root, spreads that column over the lanes, multiplies the summed array by it and then
  by the weight vector spread over the rows. Read one operation at a time at an index (t, h), every broadcast and
  reduction lands on the coordinates (t, ·), (·, h) the specification names.
-/
import proofs.«171562_j50646254354848_2_alg».proof.Proof.Gen.ReferenceIdeal.Read
import proofs.«171562_j50646254354848_2_alg».proof.Proof.SumNormSpec

noncomputable section

namespace Cert.ReferenceIdeal.AsSpec

open Cert.ReferenceIdeal Cert.ReferenceIdeal.Gen Cert.ReferenceIdeal.Read Idealize.ShloMosaic Idealize.ShloMosaic.ValueIdx
open scoped BigOperators

/-- The reference's summed stage at (t, h) is the specification's sum. -/
theorem summed_apply (x0 : (⟨S8x4096x8192, .f32⟩ : BufTy).Contents (Elt Ideal)) (x1 : (⟨S4096x8192, .f32⟩ : BufTy).Contents (Elt Ideal))
    (t : Fin 4096) (h : Fin 8192) :
    val_main_v1 (F := Ideal) x0 x1 (ix2 t h) = Cert.SumNorm.summed x0 x1 t h := by
  have e0 : ∀ k : Fin 8, idx_main_v0 (ix2 t h) k = ix3 k t h := fun k => funext fun a => Fin.ext (by
    match a with | ⟨0, _⟩ => rfl | ⟨1, _⟩ => rfl | ⟨2, _⟩ => rfl)
  rw [val_main_v1_apply, val_main_v0_apply, val_main_cst_apply]
  simp only [e0, Ideal.addf_def, Ideal.ofBits_def]
  exact Cert.SumNorm.zero_add_sum (x1 (ix2 t h)) (fun k => x0 (ix3 k t h))

/-- So the reference's second result is the specification's summed array. -/
theorem summed_eq (x0 : (⟨S8x4096x8192, .f32⟩ : BufTy).Contents (Elt Ideal)) (x1 : (⟨S4096x8192, .f32⟩ : BufTy).Contents (Elt Ideal)) :
    val_main_v1 (F := Ideal) x0 x1 = Cert.SumNorm.resOut x0 x1 := by
  funext i
  obtain ⟨t, h, rfl⟩ : ∃ (t : Fin 4096) (h : Fin 8192), i = ix2 t h := ⟨i 0, i 1, eq_ix2 i⟩
  exact summed_apply x0 x1 t h

/-- The reference's normalised stage at (t, h) is row t of the summed array, normalised and scaled, at lane h. -/
theorem normed_apply (x0 : (⟨S8x4096x8192, .f32⟩ : BufTy).Contents (Elt Ideal)) (x1 : (⟨S4096x8192, .f32⟩ : BufTy).Contents (Elt Ideal))
    (x2 : (⟨S8192, .f32⟩ : BufTy).Contents (Elt Ideal)) (t : Fin 4096) (h : Fin 8192) :
    val_main_v14 (F := Ideal) x0 x1 x2 (ix2 t h)
      = Cert.SumNorm.rowNorm (fun h' => Cert.SumNorm.summed x0 x1 t h') (fun h' => x2 (ix1 h')) h := by
  have e3 : ∀ k : Fin 8192, idx_main_v3 (idx_main_v4 (idx_main_v10 (ix2 t h))) k = ix2 t k := fun k => funext fun a => Fin.ext (by
    match a with | ⟨0, _⟩ => rfl | ⟨1, _⟩ => rfl)
  have e12 : idx_main_v12 (idx_main_v13 (ix2 t h)) = ix1 h := funext fun a => Fin.ext (by
    match a with | ⟨0, _⟩ => rfl)
  rw [val_main_v14_apply, val_main_v11_apply, val_main_v10_apply, val_main_v9_apply, val_main_v8_apply, val_main_v6_apply,
    val_main_v4_apply, val_main_v3_apply, val_main_v5_apply, val_main_v7_apply, val_main_v13_apply, val_main_v12_apply]
  simp only [val_main_cst_0_apply, val_main_cst_1_apply, val_main_cst_2_apply, val_main_v2_apply, e3, e12, summed_apply,
    Ideal.mulf_def, Ideal.addf_def, Ideal.hostDivf_def, Ideal.hostUnary_rsqrt_def, Ideal.ofBits_def,
    Ideal.ofBits_zero_f32, zero_add]
  rfl

/-- So the reference's first result is the specification's normalised array. -/
theorem normed_eq (x0 : (⟨S8x4096x8192, .f32⟩ : BufTy).Contents (Elt Ideal)) (x1 : (⟨S4096x8192, .f32⟩ : BufTy).Contents (Elt Ideal))
    (x2 : (⟨S8192, .f32⟩ : BufTy).Contents (Elt Ideal)) :
    val_main_v14 (F := Ideal) x0 x1 x2 = Cert.SumNorm.normOut x0 x1 x2 := by
  funext i
  obtain ⟨t, h, rfl⟩ : ∃ (t : Fin 4096) (h : Fin 8192), i = ix2 t h := ⟨i 0, i 1, eq_ix2 i⟩
  exact normed_apply x0 x1 x2 t h

end Cert.ReferenceIdeal.AsSpec

end
-- ==== Proof.lean ====
/-
  The kernel sums eight partial activation arrays x[k] of shape [4096, 8192] with a residual array r, and normalises
  every row of the sum a by its root mean square, scaled by a weight vector w:
      a[t, h] = r[t, h] + x[0, t, h] + … + x[7, t, h],      out[t, h] = a[t, h] · (mean_h' a[t, h']² + ε)^(-1/2) · w[h].
  It works on 32 rows at a time over a grid of 128 points and returns both out and a. The reference computes
  a = (0 + Σ_k x[k]) + r and the same normalisation with whole-array operations. On the extended reals the two agree
  index by index: the only difference is the order in which the nine terms of a are added, and addition there is
  commutative and associative with 0 neutral; the divisor 8192.0 and ε are the same float patterns on both sides, and
  the inverse square root and the division are the same functions. No finiteness of the inputs is used.

  The kernel's result arrays as functions of the argument arrays come from its generated frame run, block by block
  (Proof/Arrays.lean, over Proof/BlockValue.lean and Proof/BlockArith.lean); the reference's from its generated run, read
  one operation at a time (Proof/ReferenceAsSpec.lean); both are the functions of Proof/SumNormSpec.lean. The kernel's
  text is read on the extended reals as it stands, with no operation replaced, so the claim that this reading is the
  sanctioned one has nothing to state; the frames of the two kernel programs are the generated ones.
-/
import proofs.«171562_j50646254354848_2_alg».proof.Defs
import proofs.«171562_j50646254354848_2_alg».proof.Proof.Gen.Kernel
import proofs.«171562_j50646254354848_2_alg».proof.Proof.Gen.Kernel.Skeleton
import proofs.«171562_j50646254354848_2_alg».proof.Proof.Gen.Kernel.Launch
import proofs.«171562_j50646254354848_2_alg».proof.Proof.Gen.Kernel.Points
import proofs.«171562_j50646254354848_2_alg».proof.Proof.Gen.Kernel.Frame
import proofs.«171562_j50646254354848_2_alg».proof.Proof.Gen.KernelIdeal
import proofs.«171562_j50646254354848_2_alg».proof.Proof.Gen.KernelIdeal.Skeleton
import proofs.«171562_j50646254354848_2_alg».proof.Proof.Gen.KernelIdeal.Launch
import proofs.«171562_j50646254354848_2_alg».proof.Proof.Gen.KernelIdeal.Points
import proofs.«171562_j50646254354848_2_alg».proof.Proof.Gen.KernelIdeal.Frame
import proofs.«171562_j50646254354848_2_alg».proof.Proof.Gen.ReferenceIdeal
import proofs.«171562_j50646254354848_2_alg».proof.Proof.Gen.Pre_finite_inputs
import proofs.«171562_j50646254354848_2_alg».proof.Proof.Gen.KernelIdeal.Value
import proofs.«171562_j50646254354848_2_alg».proof.Proof.Gen.ReferenceIdeal.Run
import proofs.«171562_j50646254354848_2_alg».proof.Proof.Gen.ReferenceIdeal.Read
import proofs.«171562_j50646254354848_2_alg».proof.Proof.Arrays
import proofs.«171562_j50646254354848_2_alg».proof.Proof.ReferenceAsSpec
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the three arguments both programs end with the normalised array and the summed
    array of the specification: the kernel by its run read block by block, the reference by its run read operation
    by operation. -/
theorem algebraic : Cert.algebraic_KernelIdeal_ReferenceIdeal := by
  intro m ρ m' ρ' _ hagree
  refine ⟨fun c => Cert.SumNorm.normOut (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    fun c => Cert.SumNorm.resOut (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v14_eq, Cert.ReferenceIdeal.AsSpec.normed_eq, (hagree c).1, (hagree c).2.1,
      (hagree c).2.2]
  · rw [Cert.ReferenceIdeal.Read.val_main_v1_eq, Cert.ReferenceIdeal.AsSpec.summed_eq, (hagree c).1, (hagree c).2.1]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
